-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S1x4096 : Shape := ⟨2, ![1, 4096]⟩
abbrev S256x2048 : Shape := ⟨2, ![256, 2048]⟩
abbrev S1x2048 : Shape := ⟨2, ![1, 2048]⟩
abbrev S255x2048 : Shape := ⟨2, ![255, 2048]⟩
abbrev S2x2048 : Shape := ⟨2, ![2, 2048]⟩
abbrev S254x2048 : Shape := ⟨2, ![254, 2048]⟩
abbrev S4x2048 : Shape := ⟨2, ![4, 2048]⟩
abbrev S252x2048 : Shape := ⟨2, ![252, 2048]⟩
abbrev S8x2048 : Shape := ⟨2, ![8, 2048]⟩
abbrev S248x2048 : Shape := ⟨2, ![248, 2048]⟩
abbrev S16x2048 : Shape := ⟨2, ![16, 2048]⟩
abbrev S240x2048 : Shape := ⟨2, ![240, 2048]⟩
abbrev S32x2048 : Shape := ⟨2, ![32, 2048]⟩
abbrev S224x2048 : Shape := ⟨2, ![224, 2048]⟩
abbrev S64x2048 : Shape := ⟨2, ![64, 2048]⟩
abbrev S192x2048 : Shape := ⟨2, ![192, 2048]⟩
abbrev S128x2048 : Shape := ⟨2, ![128, 2048]⟩
abbrev S2048 : Shape := ⟨1, ![2048]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v51 : BitVec 1 := Scalar.cmpi .eq arg1 c31_i32
  let v52 : BitVec 32 := Scalar.extui v51
  let c0_i32_18 : BitVec 32 := 0#32
  let v53 : BitVec 1 := Scalar.cmpi .ne v52 c0_i32_18
  v53

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  slices_S256x2048_o1_0_S255x2048 : S256x2048.Slices ![1, 0] S255x2048
  concatenates_S255x2048_S1x2048_S256x2048_d0 : Shape.Concatenates [S255x2048, S1x2048] S256x2048 0
  slices_S256x2048_o2_0_S254x2048 : S256x2048.Slices ![2, 0] S254x2048
  concatenates_S254x2048_S2x2048_S256x2048_d0 : Shape.Concatenates [S254x2048, S2x2048] S256x2048 0
  slices_S256x2048_o4_0_S252x2048 : S256x2048.Slices ![4, 0] S252x2048
  concatenates_S252x2048_S4x2048_S256x2048_d0 : Shape.Concatenates [S252x2048, S4x2048] S256x2048 0
  slices_S256x2048_o8_0_S248x2048 : S256x2048.Slices ![8, 0] S248x2048
  concatenates_S248x2048_S8x2048_S256x2048_d0 : Shape.Concatenates [S248x2048, S8x2048] S256x2048 0
  slices_S256x2048_o16_0_S240x2048 : S256x2048.Slices ![16, 0] S240x2048
  concatenates_S240x2048_S16x2048_S256x2048_d0 : Shape.Concatenates [S240x2048, S16x2048] S256x2048 0
  slices_S256x2048_o32_0_S224x2048 : S256x2048.Slices ![32, 0] S224x2048
  concatenates_S224x2048_S32x2048_S256x2048_d0 : Shape.Concatenates [S224x2048, S32x2048] S256x2048 0
  slices_S256x2048_o64_0_S192x2048 : S256x2048.Slices ![64, 0] S192x2048
  concatenates_S192x2048_S64x2048_S256x2048_d0 : Shape.Concatenates [S192x2048, S64x2048] S256x2048 0
  slices_S256x2048_o128_0_S128x2048 : S256x2048.Slices ![128, 0] S128x2048
  concatenates_S128x2048_S128x2048_S256x2048_d0 : Shape.Concatenates [S128x2048, S128x2048] S256x2048 0
  broadcasts_S1x2048_S256x2048 : S1x2048.Broadcasts S256x2048
  reduces_S256x2048_S2048 : S256x2048.Reduces [0] S2048
  shapeCasts_S2048_S1x2048 : S2048.ShapeCasts S1x2048
  slices_S256x2048_o0_0_S1x2048 : S256x2048.Slices ![0, 0] S1x2048
  shapeCasts_S1x4096_S4096 : S1x4096.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x4096.size a
  hwx0_0 : ∀ i : grid0.Coords, EltTy.bits .f32 = 32 ∨ (Rect.block (s := S8192x4096) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S4096 : Shape := ⟨1, ![4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S8192x4096, .f32⟩
  | .hbm, ⟨12, _⟩ => ⟨S_, .f32⟩
  | .hbm, ⟨13, _⟩ => ⟨S4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S_ : S_.BroadcastsInDim S_ (![] : Fin 0 → Fin S_.rank)
  reduceWindows_S8192x4096_S8192x4096_w8192s1p0_8191_w1s1p0_0 : S8192x4096.ReduceWindows (![8192, 1] : Fin 2 → Nat) ![1, 1] ![0, 0] ![8191, 0] S8192x4096
  h_S_ : 0 < S_.numel
  reducesTo_S8192x4096_S4096_d0 : S8192x4096.ReducesTo [0] S4096

variable [Facts₀]

class Facts : Prop extends Facts₀ where

variable [Facts]
-- ==== Proof.SuffixMax.lean ====
/-
  Tail maxima over a finite stretch of the naturals, in the extended reals: the quantity both programs sum.

  For `g : ℕ → EReal` and a bound `n`, `tailMax n g k` is the maximum of `g` over `k ≤ j < n` (the bottom `-∞` when
  the stretch is empty).  Everything here is lattice theory of `Finset.sup` on intervals `Finset.Ico`:
    • a left fold of `max` from `-∞` over the window positions `k, k+1, …`, padding past `n` with `-∞`, is the tail maximum;
    • a tail maximum splits at any interior point into a window maximum and a later tail maximum;
    • one doubling step of a shift-and-max scan turns window maxima of width `d` into window maxima of width `2 d`;
    • the sum of tail maxima over a stretch splits into a later stretch plus one block of rows.
-/
import Idealize.ShloMosaic.PureOps.Ideal

noncomputable section

namespace SoftLength

/-- The maximum of `g` over `k ≤ j < n`. -/
def tailMax (n : ℕ) (g : ℕ → EReal) (k : ℕ) : EReal := (Finset.Ico k n).sup g

theorem tailMax_le_iff (n : ℕ) (g : ℕ → EReal) (k : ℕ) (c : EReal) :
    tailMax n g k ≤ c ↔ ∀ j, k ≤ j → j < n → g j ≤ c := by
  unfold tailMax
  rw [Finset.sup_le_iff]
  constructor
  · intro h j hk hn; exact h j (Finset.mem_Ico.2 ⟨hk, hn⟩)
  · intro h j hj; exact h j (Finset.mem_Ico.1 hj).1 (Finset.mem_Ico.1 hj).2

/-- A tail maximum is the maximum of the window up to an interior point and the tail maximum from that point. -/
theorem tailMax_split (n : ℕ) (g : ℕ → EReal) {k mid : ℕ} (h1 : k ≤ mid) (h2 : mid ≤ n) :
    tailMax n g k = max ((Finset.Ico k mid).sup g) (tailMax n g mid) := by
  unfold tailMax
  rw [← Finset.Ico_union_Ico_eq_Ico h1 h2, Finset.sup_union]

/-- A left fold of `max` over a list is below `c` exactly when the start and every folded value are. -/
theorem foldl_max_le_iff {ι : Type} (h : ι → EReal) (l : List ι) (init c : EReal) :
    l.foldl (fun r a => max r (h a)) init ≤ c ↔ init ≤ c ∧ ∀ a ∈ l, h a ≤ c := by
  induction l generalizing init with
  | nil => simp
  | cons a l ih =>
    rw [List.foldl_cons, ih, max_le_iff]
    constructor
    · rintro ⟨⟨h1, h2⟩, h3⟩
      exact ⟨h1, fun b hb => by
        rcases List.mem_cons.1 hb with rfl | hb
        · exact h2
        · exact h3 b hb⟩
    · rintro ⟨h1, h2⟩
      exact ⟨⟨h1, h2 a (List.mem_cons_self ..)⟩, fun b hb => h2 b (List.mem_cons_of_mem _ hb)⟩

/-- The reverse running maximum as a padded window fold: from `-∞`, over window positions `p` at offsets `pos p` that
    reach every offset still inside `[0, n)`, fold in `g (k + pos p)` where that is inside and the padding `-∞` where it is not. -/
theorem foldl_window_eq_tailMax {ι : Type} (l : List ι) (n : ℕ) (g : ℕ → EReal) (k : ℕ) (pos : ι → ℕ) (w : ι → EReal)
    (hw : ∀ p, w p = if k + pos p < n then g (k + pos p) else ⊥)
    (hreach : ∀ d, k + d < n → ∃ p ∈ l, pos p = d) :
    l.foldl (fun r p => max r (w p)) ⊥ = tailMax n g k := by
  refine eq_of_forall_ge_iff fun c => ?_
  rw [foldl_max_le_iff, tailMax_le_iff]
  constructor
  · rintro ⟨-, h⟩ j hk hn
    obtain ⟨p, hp, hd⟩ := hreach (j - k) (by omega)
    have := h p hp
    rw [hw, hd] at this
    have e : k + (j - k) = j := by omega
    simp only [e, hn, if_true] at this
    exact this
  · intro h
    refine ⟨bot_le, fun p _ => ?_⟩
    rw [hw]
    split
    · next hlt => exact h _ (Nat.le_add_right _ _) hlt
    · exact bot_le

/-- One doubling step of the shift-and-max scan over `R` rows: if every row `r'` holds the maximum of `s` over the
    window `[r', min (r' + d) R)`, then the maximum of row `r` and row `r + d` (the padding `-∞` when `r + d` is past
    the last row) is the maximum over `[r, min (r + 2 d) R)`. -/
theorem scan_step (R : ℕ) (s : ℕ → EReal) (d : ℕ) (cur : Fin R → EReal)
    (hcur : ∀ r' : Fin R, cur r' = (Finset.Ico r'.val (min (r'.val + d) R)).sup s) (r : Fin R) :
    max (cur r) (if h : r.val + d < R then cur ⟨r.val + d, h⟩ else ⊥)
      = (Finset.Ico r.val (min (r.val + 2 * d) R)).sup s := by
  have hr := r.isLt
  by_cases h : r.val + d < R
  · rw [dif_pos h, hcur r, hcur ⟨r.val + d, h⟩]
    show (Finset.Ico r.val (min (r.val + d) R)).sup s ⊔ (Finset.Ico (r.val + d) (min (r.val + d + d) R)).sup s = _
    rw [← Finset.sup_union]
    have e1 : min (r.val + d) R = r.val + d := by omega
    have e2 : r.val + d + d = r.val + 2 * d := by omega
    rw [e1, e2, Finset.Ico_union_Ico_eq_Ico (by omega) (by omega)]
  · rw [dif_neg h, hcur r, max_eq_left bot_le]
    have e1 : min (r.val + d) R = R := by omega
    have e2 : min (r.val + 2 * d) R = R := by omega
    rw [e1, e2]

/-- The sum of tail maxima from row `a` on is the block of `w` rows at `a` plus the sum from row `a + w` on. -/
theorem sum_tail_split (f : ℕ → EReal) (a w n : ℕ) (h : a + w ≤ n) :
    ∑ k ∈ Finset.Ico a n, f k = ∑ k ∈ Finset.Ico (a + w) n, f k + ∑ r : Fin w, f (a + r.val) := by
  rw [← Finset.sum_Ico_consecutive f (Nat.le_add_right a w) h, add_comm]
  congr 1
  have e : a + w - a = w := by omega
  rw [Finset.sum_Ico_eq_sum_range, e, Fin.sum_univ_eq_sum_range (fun r => f (a + r)) w]

end SoftLength

end
-- ==== Proof.LibCummax.lean ====
/-
  A reverse running maximum on the host, read at an index, at the exact extended reals.

  jax spells `lax.cummax(x, axis=0, reverse=True)` on an [n, c] array as a `reduce_window` with a maximum body: windows of
  `n` rows and one column at stride one, no padding in front, padding behind, the padding and the start of each fold the
  constant `-∞`.  Read at row `k`, column `b`, that fold is the maximum of column `b` over the rows `k ≤ j < n`
  (`SoftLength.tailMax`): the window's position `p` reads row `k + p` where it exists and the padding where it does not.
-/
import Idealize.ShloMosaic.Lib.ValueIdx
import Idealize.ShloMosaic.PureOps.Ideal.Laws
import proofs.«130642_j23699629540183_1_alg».proof.Proof.SuffixMax

noncomputable section

namespace SoftLength

open Idealize.ShloMosaic Idealize.ShloMosaic.ValueIdx

/-- Column `b` of an [n, c] array as a function of the row number, `-∞` past the last row. -/
def colRows {n c : ℕ} (x : (⟨2, ![n, c]⟩ : Shape).Idx → EReal) (b : Fin c) (j : ℕ) : EReal :=
  if h : j < n then x (ix2 ⟨j, h⟩ b) else ⊥

/-- One window position's contribution: the position `i'` of the window at row `k`, column `b`, reads row
    `k + i' 0` of column `b` where that row exists, and the padding where it does not. -/
theorem window_value (n c : ℕ) (x : (⟨2, ![n, c]⟩ : Shape).Idx → EReal) (k : Fin n) (b : Fin c) (hr : 2 = 2)
    (i' : (⟨2, ![n, 1]⟩ : Shape).Idx) :
    (if hin : ∀ a : Fin 2, (![0, 0] : Fin 2 → ℕ) a ≤ ((ix2 k b) (Fin.cast hr a)).val * (![1, 1] : Fin 2 → ℕ) a + (i' a).val
          ∧ ((ix2 k b) (Fin.cast hr a)).val * (![1, 1] : Fin 2 → ℕ) a + (i' a).val - (![0, 0] : Fin 2 → ℕ) a < (![n, c] : Fin 2 → ℕ) a
      then x (fun a => ⟨((ix2 k b) (Fin.cast hr a)).val * (![1, 1] : Fin 2 → ℕ) a + (i' a).val - (![0, 0] : Fin 2 → ℕ) a, (hin a).2⟩)
      else (⊥ : EReal))
      = if k.val + (i' 0).val < n then colRows x b (k.val + (i' 0).val) else ⊥ := by
  have hb := b.isLt
  have h1 : (i' 1).val = 0 := by
    have : (i' 1).val < 1 := (i' 1).isLt
    omega
  by_cases hlt : k.val + (i' 0).val < n
  · have hin : ∀ a : Fin 2, (![0, 0] : Fin 2 → ℕ) a ≤ ((ix2 k b) (Fin.cast hr a)).val * (![1, 1] : Fin 2 → ℕ) a + (i' a).val
        ∧ ((ix2 k b) (Fin.cast hr a)).val * (![1, 1] : Fin 2 → ℕ) a + (i' a).val - (![0, 0] : Fin 2 → ℕ) a < (![n, c] : Fin 2 → ℕ) a := by
      intro a
      match a with
      | ⟨0, _⟩ =>
        show 0 ≤ k.val * 1 + (i' 0).val ∧ k.val * 1 + (i' 0).val - 0 < n
        omega
      | ⟨1, _⟩ =>
        show 0 ≤ b.val * 1 + (i' 1).val ∧ b.val * 1 + (i' 1).val - 0 < c
        omega
    rw [dif_pos hin, if_pos hlt]
    unfold colRows
    rw [dif_pos hlt]
    refine congrArg x (funext fun a => Fin.ext ?_)
    match a with
    | ⟨0, _⟩ =>
      show k.val * 1 + (i' 0).val - 0 = k.val + (i' 0).val
      omega
    | ⟨1, _⟩ =>
      show b.val * 1 + (i' 1).val - 0 = b.val
      omega
  · rw [if_neg hlt, dif_neg]
    intro hin
    have h0 := (hin 0).2
    have h0' : k.val * 1 + (i' 0).val - 0 < n := h0
    omega

/-- The host's reverse running maximum at row `k`, column `b`, is the tail maximum of the column from row `k`. -/
theorem reduceWindow_max_apply (n c : ℕ) (hi : Fin 2 → ℕ) (x : (⟨2, ![n, c]⟩ : Shape).Idx → EReal)
    (init : (⟨0, ![]⟩ : Shape).Idx → EReal) (hinit : ∀ i, init i = ⊥)
    (h : (⟨2, ![n, c]⟩ : Shape).ReduceWindows (![n, 1] : Fin 2 → ℕ) ![1, 1] ![0, 0] hi ⟨2, ![n, c]⟩)
    (hu : 0 < (⟨0, ![]⟩ : Shape).numel) (k : Fin n) (b : Fin c) :
    Host.reduceWindow (FloatOps.maximumf (F := Ideal) (φ := .f32)) (![n, 1] : Fin 2 → ℕ) ![1, 1] ![0, 0] hi x init h hu (ix2 k b)
      = tailMax n (colRows x b) k.val := by
  unfold Host.reduceWindow
  dsimp only
  rw [hinit]
  refine foldl_window_eq_tailMax _ n (colRows x b) k.val
    (fun p => ((⟨2, ![n, 1]⟩ : Shape).rowMajor.symm p 0).val) _ (fun p => ?_) (fun d hd => ?_)
  · exact window_value n c x k b _ ((⟨2, ![n, 1]⟩ : Shape).rowMajor.symm p)
  · refine ⟨(⟨2, ![n, 1]⟩ : Shape).rowMajor (ix2 ⟨d, by omega⟩ ⟨0, Nat.one_pos⟩), List.mem_finRange _, ?_⟩
    show (((⟨2, ![n, 1]⟩ : Shape).rowMajor.symm ((⟨2, ![n, 1]⟩ : Shape).rowMajor (ix2 ⟨d, by omega⟩ ⟨0, Nat.one_pos⟩))) 0).val = d
    rw [Equiv.symm_apply_apply]
    rfl

end SoftLength

end
-- ==== Proof.Spec.lean ====
/-
  The soft length of a batch of sequences, as one function of the argument array.

  `x` is [8192, 4096]: 8192 positions by 4096 sequences.  With `σ` the logistic function, the result at sequence `b` is
      ∑ over positions k of  max over positions j ≥ k of  σ (x (j, b)),
  the sum over positions of the reverse running maximum of `σ x` along the positions.  Both programs compute it: the
  reference as a padded window maximum followed by a column sum, the kernel block by block from the last block of 256
  positions to the first, carrying the running maximum and the running sum between blocks.
-/
import Idealize.ShloMosaic.Lib.ValueIdx
import proofs.«130642_j23699629540183_1_alg».proof.Proof.LibCummax

noncomputable section

namespace SoftLength

open Idealize.ShloMosaic Idealize.ShloMosaic.ValueIdx

/-- Sequence `b`'s logistic values as a function of the position, `-∞` past the last position. -/
def sigCol (x : (⟨2, ![8192, 4096]⟩ : Shape).Idx → EReal) (b : Fin 4096) : ℕ → EReal :=
  colRows (fun i => Ideal.logistic (x i)) b

/-- The soft length of sequence `b`: the sum over positions of the tail maxima of its logistic values. -/
def colSoftLength (x : (⟨2, ![8192, 4096]⟩ : Shape).Idx → EReal) (b : Fin 4096) : EReal :=
  ∑ k : Fin 8192, tailMax 8192 (sigCol x b) k.val

/-- The result array. -/
def softLength (x : (⟨2, ![8192, 4096]⟩ : Shape).Idx → EReal) : (⟨1, ![4096]⟩ : Shape).Idx → EReal :=
  fun i => colSoftLength x (i 0)

theorem softLength_ix1 (x : (⟨2, ![8192, 4096]⟩ : Shape).Idx → EReal) (b : Fin 4096) :
    softLength x (ix1 b) = colSoftLength x b := rfl

/-- The same sum over the positions as a stretch of the naturals. -/
theorem colSoftLength_eq_Ico (x : (⟨2, ![8192, 4096]⟩ : Shape).Idx → EReal) (b : Fin 4096) :
    colSoftLength x b = ∑ k ∈ Finset.Ico 0 8192, tailMax 8192 (sigCol x b) k := by
  unfold colSoftLength
  rw [Fin.sum_univ_eq_sum_range (fun k => tailMax 8192 (sigCol x b) k) 8192, Finset.range_eq_Ico]

end SoftLength

end
-- ==== Proof.RefValue.lean ====
/-
  The reference computes the soft length.

  Its text: the logistic function spelt `1 / (1 + exp (-x))` in host operations, then the reverse running maximum along the
  positions as a padded window maximum, then the column sum from the constant `0`.  At the exact extended reals the
  quotient IS the logistic function, the window fold at position `k` is the tail maximum from `k` on, and the host's sum
  is the initial `0` plus the sum over the positions: the result at sequence `b` is `SoftLength.colSoftLength x b`.
-/
import proofs.«130642_j23699629540183_1_alg».proof.Proof.RefRun
import proofs.«130642_j23699629540183_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx SoftLength

/-- The f32 pattern of `1.0` is the real number one. -/
theorem ofBits_one : Ideal.ofBits .f32 0x3F800000#32 = (1 : EReal) := by
  simp [Ideal.ofBits, Ideal.ieee, -EReal.coe_mul]
  norm_num

/-- The f32 pattern of `-∞` is the bottom. -/
theorem ofBits_neg_inf : Ideal.ofBits .f32 0xFF800000#32 = (⊥ : EReal) := by
  simp [Ideal.ofBits, Ideal.ieee]

/-- The reference's first eight operations, read at an index: the logistic function of the argument there. -/
theorem sigmoid_apply (x : S8192x4096.Idx → EReal) (j : S8192x4096.Idx) :
    Host.divf (F := Ideal) (φ := .f32) (broadcastInDim S8192x4096 ![] bcast_S_S8192x4096 (constant (F := Ideal) S_ .f32 0x3F800000#32))
      (addf (broadcastInDim S8192x4096 ![] bcast_S_S8192x4096 (constant (F := Ideal) S_ .f32 0x3F800000#32))
        (Host.exp (Host.negf x))) j = Ideal.logistic (x j) := by
  show FloatOps.hostDivf (F := Ideal) (φ := .f32) (Ideal.ofBits .f32 0x3F800000#32)
    (FloatOps.addf (F := Ideal) (φ := .f32) (Ideal.ofBits .f32 0x3F800000#32) (FloatOps.hostUnary .exp (FloatOps.hostNegf (x j)))) = _
  rw [ofBits_one]
  rfl

/-- The reference's result term is the soft length of its argument. -/
theorem result_eq (x : S8192x4096.Idx → EReal) :
    Host.reduceAdd (F := Ideal) (φ := .f32) (Host.reduceWindow FloatOps.maximumf ![8192, 1] ![1, 1] ![0, 0] ![8191, 0]
        (Host.divf (broadcastInDim S8192x4096 ![] bcast_S_S8192x4096 (constant S_ .f32 0x3F800000#32))
          (addf (broadcastInDim S8192x4096 ![] bcast_S_S8192x4096 (constant S_ .f32 0x3F800000#32)) (Host.exp (Host.negf x))))
        (broadcastInDim S_ ![] bcast_S_S_ (constant S_ .f32 0xFF800000#32))
        reduceWindows_S8192x4096_S8192x4096_w8192s1p0_8191_w1s1p0_0 h_S_)
      (constant S_ .f32 0x00000000#32) reducesTo_S8192x4096_S4096_d0 h_S_
      = softLength x := by
  funext i
  obtain ⟨b, rfl⟩ : ∃ b : Fin 4096, i = ix1 b := ⟨i 0, eq_ix1 i⟩
  rw [softLength_ix1]
  unfold colSoftLength
  simp only [Host.reduceAdd, Ideal.hostReduceAdd_def]
  rw [Ideal.hostReduceAdd_single reducesTo_S8192x4096_S4096_d0 (by decide)]
  have hzero : (constant (F := Ideal) S_ .f32 0x00000000#32) (Shape.Idx.first h_S_) = (0 : EReal) := Ideal.ofBits_zero_f32
  rw [hzero, zero_add]
  refine Finset.sum_congr rfl fun k _ => ?_
  have e : (Shape.Reduces.lift (s := S8192x4096) (t := S4096) (a := 0) (by decide) (ix1 b) k) = ix2 k b :=
    funext fun a => Fin.ext (by match a with | ⟨0, _⟩ => rfl | ⟨1, _⟩ => rfl)
  rw [e]
  refine (reduceWindow_max_apply 8192 4096 ![8191, 0] _ _ (fun _ => ofBits_neg_inf)
    reduceWindows_S8192x4096_S8192x4096_w8192s1p0_8191_w1s1p0_0 h_S_ k b).trans ?_
  refine congrArg (fun g => tailMax 8192 g k.val) (funext fun j => ?_)
  unfold sigCol colRows
  split
  · exact sigmoid_apply x _
  · rfl

end Cert.ReferenceIdeal.RefValue

end
-- ==== Proof.Pieces.lean ====
/-
  What one grid point leaves in the carried rows and in the output row, as the body's stored values.

  The frame run names, per control case, the pieces the body's stores leave in each buffer.  Read back, they are the
  body's pure stored values of the buffers' contents before the point: with `x0` the input block, `xs0` the carried
  running maximum and `xs1` the carried running sum,
    running maximum after the point = row 0 of the combined block,
    running sum after the point     = carried sum + column sums of the combined block,
  where the combined block is computed from `x0` and the carried maximum; at the first point of a column chunk the
  carried values are the freshly stored `-∞` and `0`; at its last point the output row is the new running sum.
-/
import proofs.«130642_j23699629540183_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A middle point: the new running maximum. -/
theorem carry_B (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : ¬cond0_1 i)
    (x0 : Vec F S256x2048 .f32) (xs0 xs1 : Vec F S1x2048 .f32) :
    sout0_B_0 c i a2 h2 a3 h3 a4 h4 a5 h5 hc0 hc1 x0 xs0 xs1 = k0_pay2 (k0_pay5 x0 xs0) := by
  unfold sout0_B_0
  rw [View.read_writes_eq_canon _ _ _ (scover0_B_0 c i a2 h2 a3 h3 a4 h4 a5 h5 hc0 hc1 x0 xs0 xs1)]
  unfold kernelRun0_B
  dsimp only
  sl_unfold_words
  rw [View.canon_unit_zero hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- A middle point: the new running sum. -/
theorem acc_B (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : ¬cond0_1 i)
    (x0 : Vec F S256x2048 .f32) (xs0 xs1 : Vec F S1x2048 .f32) :
    sout0_B_1 c i a2 h2 a3 h3 a4 h4 a5 h5 hc0 hc1 x0 xs0 xs1 = k0_pay1 (k0_pay5 x0 xs0) xs1 := by
  unfold sout0_B_1
  rw [View.read_writes_eq_canon _ _ _ (scover0_B_1 c i a2 h2 a3 h3 a4 h4 a5 h5 hc0 hc1 x0 xs0 xs1)]
  unfold kernelRun0_B
  dsimp only
  sl_unfold_words
  rw [View.canon_unit_zero hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- The last point of a column chunk: the new running maximum. -/
theorem carry_C (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : cond0_1 i)
    (x0 : Vec F S256x2048 .f32) (xs0 xs1 : Vec F S1x2048 .f32) :
    sout0_C_0 c i a2 h2 a3 h3 a4 h4 a5 h5 hc0 hc1 x0 xs0 xs1 = k0_pay2 (k0_pay5 x0 xs0) := by
  unfold sout0_C_0
  rw [View.read_writes_eq_canon _ _ _ (scover0_C_0 c i a2 h2 a3 h3 a4 h4 a5 h5 hc0 hc1 x0 xs0 xs1)]
  unfold kernelRun0_C
  dsimp only
  sl_unfold_words
  rw [View.canon_unit_zero hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- The last point of a column chunk: the new running sum. -/
theorem acc_C (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : cond0_1 i)
    (x0 : Vec F S256x2048 .f32) (xs0 xs1 : Vec F S1x2048 .f32) :
    sout0_C_1 c i a2 h2 a3 h3 a4 h4 a5 h5 hc0 hc1 x0 xs0 xs1 = k0_pay1 (k0_pay5 x0 xs0) xs1 := by
  unfold sout0_C_1
  rw [View.read_writes_eq_canon _ _ _ (scover0_C_1 c i a2 h2 a3 h3 a4 h4 a5 h5 hc0 hc1 x0 xs0 xs1)]
  unfold kernelRun0_C
  dsimp only
  sl_unfold_words
  rw [View.canon_unit_zero hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- The last point of a column chunk: the output row is the new running sum. -/
theorem out_C (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : ¬cond0_0 i) (hc1 : cond0_1 i)
    (x0 : Vec F S256x2048 .f32) (xs0 xs1 : Vec F S1x2048 .f32) :
    out0_C_1 c i a2 h2 a3 h3 a4 h4 a5 h5 hc0 hc1 x0 xs0 xs1 = k0_pay1 (k0_pay5 x0 xs0) xs1 := by
  unfold out0_C_1
  rw [View.read_writes_eq_canon _ _ _ (cover0_C_1 c i a2 h2 a3 h3 a4 h4 a5 h5 hc0 hc1 x0 xs0 xs1)]
  unfold kernelRun0_C
  dsimp only
  sl_unfold_words
  rw [View.canon_unit_zero hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- The first point of a column chunk: the running maximum, from the freshly stored `-∞` row. -/
theorem carry_A (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : cond0_0 i) (hc1 : ¬cond0_1 i)
    (x0 : Vec F S256x2048 .f32) :
    sout0_A_0 c i a2 h2 a3 h3 a4 h4 a5 h5 hc0 hc1 x0 = k0_pay2 (k0_pay5 x0 (k0_pay3 (F := F))) := by
  unfold sout0_A_0
  rw [View.read_writes_eq_canon _ _ _ (scover0_A_0 c i a2 h2 a3 h3 a4 h4 a5 h5 hc0 hc1 x0)]
  unfold kernelRun0_A
  dsimp only
  sl_unfold_words
  rw [View.canon_cons_unit_zero (S := S1x2048) hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

/-- The first point of a column chunk: the running sum, from the freshly stored `0` row. -/
theorem acc_A (c : Dev nD) (i : grid0.Coords) (a2 : Memref sig .tc .vmem S256x2048 .f32) (h2 : a2.IsWhole)
    (a3 : Memref sig .tc .vmem S1x2048 .f32) (h3 : a3.IsWhole) (a4 : Memref sig .tc .vmem S1x2048 .f32) (h4 : a4.IsWhole)
    (a5 : Memref sig .tc .vmem S1x2048 .f32) (h5 : a5.IsWhole) (hc0 : cond0_0 i) (hc1 : ¬cond0_1 i)
    (x0 : Vec F S256x2048 .f32) :
    sout0_A_1 c i a2 h2 a3 h3 a4 h4 a5 h5 hc0 hc1 x0 = k0_pay1 (k0_pay5 x0 (k0_pay3 (F := F))) (k0_pay4 (F := F)) := by
  unfold sout0_A_1
  rw [View.read_writes_eq_canon _ _ _ (scover0_A_1 c i a2 h2 a3 h3 a4 h4 a5 h5 hc0 hc1 x0)]
  unfold kernelRun0_A
  dsimp only
  sl_unfold_words
  rw [View.canon_cons_unit_zero (S := S1x2048) hz]
  simp only [View.readAt_eq_ld, h2.read_unread, h3.read_unread, h4.read_unread, h5.read_unread, View.ld_unit_zero (S := S256x2048) hz,
    View.ld_unit_zero (S := S1x2048) hz, View.readCov_unit_zero (S := S1x2048) _ hz]

end Cert.KernelIdeal.Pieces

end
-- ==== Proof.LibShiftScan.lean ====
/-
  A shift-and-max scan step on a two-axis vector, read at an index, at the exact extended reals.

  `shiftPad_apply`: the rows of an [R, C] vector moved up by `n₂` — the slice from row `n₂` on, with `n₂` constant rows
  laid behind it — read at row `r`, column `q`, is the operand at row `r + n₂` where that row exists and the constant
  where it does not.
  `scanStep`: the maximum of a vector and its rows moved up by `n₂` over a padding of `-∞`.
  `scanStep_apply`: if every row `r'` of the operand is the maximum of a column function `s q` over the window
  `[r', min (r' + n₂) R)`, the step's result at row `r` is the maximum over `[r, min (r + 2 n₂) R)`.
-/
import Idealize.ShloMosaic.Lib.Pipeline.Value
import Idealize.ShloMosaic.Lib.ValueIdx
import Idealize.ShloMosaic.PureOps.Ideal.Laws
import proofs.«130642_j23699629540183_1_alg».proof.Proof.SuffixMax

noncomputable section

namespace SoftLength

open Idealize.ShloMosaic Idealize.ShloMosaic.ValueIdx

/-- The f32 pattern of `-∞` is the bottom of the extended reals. -/
theorem ofBits_neg_inf : (Scalar.ofBits .f32 0xFF800000#32 : Ideal .f32) = (⊥ : EReal) := by
  show Ideal.ofBits .f32 0xFF800000#32 = ⊥
  simp [Ideal.ofBits, Ideal.ieee]

/-- Rows moved up by `n₂` over a constant padding, read at an index. -/
theorem shiftPad_apply {α : Type} (R C n₁ n₂ : ℕ) (hn : n₁ + n₂ = R) (cur : (⟨2, ![R, C]⟩ : Shape).Idx → α)
    (pad : (⟨2, ![n₂, C]⟩ : Shape).Idx → α) (c : α) (hpad : ∀ i, pad i = c)
    (h1 : (⟨2, ![R, C]⟩ : Shape).Slices ![n₂, 0] ⟨2, ![n₁, C]⟩)
    (h2 : Shape.Concatenates [(⟨2, ![n₁, C]⟩ : Shape), ⟨2, ![n₂, C]⟩] ⟨2, ![R, C]⟩ 0)
    (r : Fin R) (q : Fin C) :
    concatenate (⟨2, ![R, C]⟩ : Shape) 0
        [⟨⟨2, ![n₁, C]⟩, extractStridedSlice ⟨2, ![n₁, C]⟩ ![n₂, 0] cur h1⟩, ⟨⟨2, ![n₂, C]⟩, pad⟩] h2 (ix2 r q)
      = if h : r.val + n₂ < R then cur (ix2 ⟨r.val + n₂, h⟩ q) else c := by
  have hr := r.isLt
  by_cases h : r.val + n₂ < R
  · rw [dif_pos h]
    have hr1 : r.val < n₁ := by omega
    refine (concatenate_pair_apply_left (t := ⟨2, ![R, C]⟩) (s₁ := ⟨2, ![n₁, C]⟩) (s₂ := ⟨2, ![n₂, C]⟩) (0 : Fin 2)
      (extractStridedSlice ⟨2, ![n₁, C]⟩ ![n₂, 0] cur h1) pad h2 (ix2 r q) rfl (ix2 ⟨r.val, hr1⟩ q)
      (fun b => by match b with | ⟨0, _⟩ => rfl | ⟨1, _⟩ => rfl)).trans ?_
    exact extractStridedSlice_apply ![n₂, 0] cur h1 (ix2 ⟨r.val, hr1⟩ q) (ix2 ⟨r.val + n₂, h⟩ q)
      (fun a => by
        match a with
        | ⟨0, _⟩ => exact Nat.add_comm _ _
        | ⟨1, _⟩ => exact (Nat.zero_add _).symm)
  · rw [dif_neg h]
    have hr1 : r.val - n₁ < n₂ := by omega
    refine (concatenate_pair_apply_right (t := ⟨2, ![R, C]⟩) (s₁ := ⟨2, ![n₁, C]⟩) (s₂ := ⟨2, ![n₂, C]⟩) (0 : Fin 2)
      (extractStridedSlice ⟨2, ![n₁, C]⟩ ![n₂, 0] cur h1) pad h2 (ix2 r q) rfl rfl (ix2 ⟨r.val - n₁, hr1⟩ q)
      (fun b hb => by
        match b with
        | ⟨0, _⟩ => exact absurd rfl hb
        | ⟨1, _⟩ => rfl)
      (by show r.val - n₁ + n₁ = r.val; omega)).trans ?_
    exact hpad _

/-- One step of the scan: the maximum of a vector and its rows moved up by `n₂` over `-∞`. -/
def scanStep (R C n₁ n₂ : ℕ) (h1 : (⟨2, ![R, C]⟩ : Shape).Slices ![n₂, 0] ⟨2, ![n₁, C]⟩)
    (h2 : Shape.Concatenates [(⟨2, ![n₁, C]⟩ : Shape), ⟨2, ![n₂, C]⟩] ⟨2, ![R, C]⟩ 0)
    (cur : FVec Ideal ⟨2, ![R, C]⟩ .f32) : FVec Ideal ⟨2, ![R, C]⟩ .f32 :=
  maximumf cur (concatenate (⟨2, ![R, C]⟩ : Shape) 0
    [⟨⟨2, ![n₁, C]⟩, extractStridedSlice ⟨2, ![n₁, C]⟩ ![n₂, 0] cur h1⟩,
     ⟨⟨2, ![n₂, C]⟩, broadcast ⟨2, ![n₂, C]⟩ (Scalar.ofBits .f32 0xFF800000#32 : Ideal .f32)⟩] h2)

/-- The step doubles the window every row holds the maximum of. -/
theorem scanStep_apply (R C n₁ n₂ : ℕ) (hn : n₁ + n₂ = R)
    (h1 : (⟨2, ![R, C]⟩ : Shape).Slices ![n₂, 0] ⟨2, ![n₁, C]⟩)
    (h2 : Shape.Concatenates [(⟨2, ![n₁, C]⟩ : Shape), ⟨2, ![n₂, C]⟩] ⟨2, ![R, C]⟩ 0)
    (cur : FVec Ideal ⟨2, ![R, C]⟩ .f32) (s : Fin C → ℕ → EReal)
    (hcur : ∀ (r' : Fin R) (q : Fin C), cur (ix2 r' q) = (Finset.Ico r'.val (min (r'.val + n₂) R)).sup (s q))
    (r : Fin R) (q : Fin C) :
    scanStep R C n₁ n₂ h1 h2 cur (ix2 r q) = (Finset.Ico r.val (min (r.val + 2 * n₂) R)).sup (s q) := by
  unfold scanStep
  rw [maximumf_apply, shiftPad_apply R C n₁ n₂ hn cur
    (broadcast ⟨2, ![n₂, C]⟩ (Scalar.ofBits .f32 0xFF800000#32 : Ideal .f32)) (⊥ : EReal) (fun _ => ofBits_neg_inf) h1 h2 r q]
  exact scan_step R (s q) n₂ (fun r' => cur (ix2 r' q)) (fun r' => hcur r' q) r

end SoftLength

end
-- ==== Proof.Payloads.lean ====
/-
  The kernel body's arithmetic at the exact extended reals, read at an index.

  One grid point handles a block of 256 positions by 2048 sequences, `v3`, with the carried running maximum `v37` and the
  carried running sum `v40` (one row each).  Its three stored values are:
    • the combined block: eight shift-and-max steps (shifts 1, 2, 4, …, 128 over a padding of `-∞`) turn the logistic
      values into their within-block tail maxima, and the carried maximum is folded into every row — at row `r`, column `q`:
          max (max over r ≤ r' < 256 of σ (v3 (r', q))) (v37 (0, q));
    • the new running sum: the carried sum plus the column sums of the combined block;
    • the new running maximum: row 0 of the combined block.
  At the first grid point of a column chunk the carried values are first set to `-∞` and `0`.
-/
import proofs.«130642_j23699629540183_1_alg».proof.Proof.Gen.KernelIdeal.Skeleton
import proofs.«130642_j23699629540183_1_alg».proof.Proof.LibShiftScan
import proofs.«130642_j23699629540183_1_alg».proof.Proof.LibCummax
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx SoftLength

/-- Column `q` of a block's logistic values as a function of the row number, `-∞` past the last row. -/
def sigRows (v3 : Vec Ideal S256x2048 .f32) (q : Fin 2048) : ℕ → EReal :=
  colRows (n := 256) (c := 2048) (fun i => Ideal.logistic (v3 i)) q

/-- The combined block is the eight scan steps of the logistic values, then the maximum with the carried row. -/
theorem pay5_eq_scan (v3 : Vec Ideal S256x2048 .f32) (v37 : Vec Ideal S1x2048 .f32) :
    k0_pay5 (F := Ideal) v3 v37
      = maximumf
          (scanStep 256 2048 128 128 slices_S256x2048_o128_0_S128x2048 concatenates_S128x2048_S128x2048_S256x2048_d0
          (scanStep 256 2048 192 64 slices_S256x2048_o64_0_S192x2048 concatenates_S192x2048_S64x2048_S256x2048_d0
          (scanStep 256 2048 224 32 slices_S256x2048_o32_0_S224x2048 concatenates_S224x2048_S32x2048_S256x2048_d0
          (scanStep 256 2048 240 16 slices_S256x2048_o16_0_S240x2048 concatenates_S240x2048_S16x2048_S256x2048_d0
          (scanStep 256 2048 248 8 slices_S256x2048_o8_0_S248x2048 concatenates_S248x2048_S8x2048_S256x2048_d0
          (scanStep 256 2048 252 4 slices_S256x2048_o4_0_S252x2048 concatenates_S252x2048_S4x2048_S256x2048_d0
          (scanStep 256 2048 254 2 slices_S256x2048_o2_0_S254x2048 concatenates_S254x2048_S2x2048_S256x2048_d0
          (scanStep 256 2048 255 1 slices_S256x2048_o1_0_S255x2048 concatenates_S255x2048_S1x2048_S256x2048_d0
            (logistic v3)))))))))
          (broadcastTo S256x2048 v37 broadcasts_S1x2048_S256x2048) := rfl

/-- The combined block at row `r`, column `q`: the within-block tail maximum of the logistic values from row `r`, or
    the carried maximum if that is larger. -/
theorem pay5_apply (v3 : Vec Ideal S256x2048 .f32) (v37 : Vec Ideal S1x2048 .f32) (r : Fin 256) (q : Fin 2048) :
    k0_pay5 (F := Ideal) v3 v37 (ix2 r q)
      = max ((Finset.Ico r.val 256).sup (sigRows v3 q)) (v37 (ix2 0 q)) := by
  rw [pay5_eq_scan, maximumf_apply]
  have s0 : ∀ (r' : Fin 256) (q : Fin 2048),
      (logistic v3 : FVec Ideal S256x2048 .f32) (ix2 r' q) = (Finset.Ico r'.val (min (r'.val + 1) 256)).sup (sigRows v3 q) := by
    intro r' q
    have hr := r'.isLt
    have e : min (r'.val + 1) 256 = r'.val + 1 := by omega
    rw [e, Nat.Ico_succ_singleton, Finset.sup_singleton]
    unfold sigRows colRows
    rw [dif_pos hr]
    rfl
  have s1 := scanStep_apply 256 2048 255 1 rfl slices_S256x2048_o1_0_S255x2048 concatenates_S255x2048_S1x2048_S256x2048_d0 _ (sigRows v3) s0
  have s2 := scanStep_apply 256 2048 254 2 rfl slices_S256x2048_o2_0_S254x2048 concatenates_S254x2048_S2x2048_S256x2048_d0 _ (sigRows v3) s1
  have s3 := scanStep_apply 256 2048 252 4 rfl slices_S256x2048_o4_0_S252x2048 concatenates_S252x2048_S4x2048_S256x2048_d0 _ (sigRows v3) s2
  have s4 := scanStep_apply 256 2048 248 8 rfl slices_S256x2048_o8_0_S248x2048 concatenates_S248x2048_S8x2048_S256x2048_d0 _ (sigRows v3) s3
  have s5 := scanStep_apply 256 2048 240 16 rfl slices_S256x2048_o16_0_S240x2048 concatenates_S240x2048_S16x2048_S256x2048_d0 _ (sigRows v3) s4
  have s6 := scanStep_apply 256 2048 224 32 rfl slices_S256x2048_o32_0_S224x2048 concatenates_S224x2048_S32x2048_S256x2048_d0 _ (sigRows v3) s5
  have s7 := scanStep_apply 256 2048 192 64 rfl slices_S256x2048_o64_0_S192x2048 concatenates_S192x2048_S64x2048_S256x2048_d0 _ (sigRows v3) s6
  have s8 := scanStep_apply 256 2048 128 128 rfl slices_S256x2048_o128_0_S128x2048 concatenates_S128x2048_S128x2048_S256x2048_d0 _ (sigRows v3) s7
  have hr := r.isLt
  have e8 : min (r.val + 2 * 128) 256 = 256 := by omega
  rw [s8 r q, e8]
  refine congrArg (max _) ?_
  exact broadcastTo_apply v37 broadcasts_S1x2048_S256x2048 (ix2 r q) (ix2 0 q)
    (fun a => by match a with | ⟨0, _⟩ => rfl | ⟨1, _⟩ => rfl)

/-- The new running maximum is row 0 of the combined block. -/
theorem pay2_apply (v39 : FVec Ideal S256x2048 .f32) (q : Fin 2048) :
    k0_pay2 (F := Ideal) v39 (ix2 0 q) = v39 (ix2 0 q) := by
  unfold k0_pay2
  rw [shapeCast_self]
  exact extractStridedSlice_apply ![0, 0] v39 slices_S256x2048_o0_0_S1x2048 (ix2 0 q) (ix2 0 q)
    (fun a => by match a with | ⟨0, _⟩ => rfl | ⟨1, _⟩ => exact (Nat.zero_add _).symm)

/-- The new running sum is the carried sum plus the column sum of the combined block. -/
theorem pay1_apply (v39 : FVec Ideal S256x2048 .f32) (v40 : Vec Ideal S1x2048 .f32) (q : Fin 2048) :
    k0_pay1 (F := Ideal) v39 v40 (ix2 0 q) = v40 (ix2 0 q) + ∑ k : Fin 256, v39 (ix2 k q) := by
  unfold k0_pay1
  rw [shapeCast_self, addf_apply]
  refine congrArg (v40 (ix2 0 q) + ·) ?_
  refine (shapeCast_addUnit_apply ![2048] _ shapeCasts_S2048_S1x2048 (ix2 0 q)).trans ?_
  refine (Ideal.multiReduction_add_single v39 0x00000000#32 reduces_S256x2048_S2048 (.inl rfl) rfl _).trans ?_
  refine Finset.sum_congr rfl fun k _ => congrArg v39 ?_
  exact funext fun a => Fin.ext (by match a with | ⟨0, _⟩ => rfl | ⟨1, _⟩ => rfl)

/-- The row stored at the first point of a column chunk as the running maximum: `-∞`. -/
theorem pay3_apply (j : S1x2048.Idx) : k0_pay3 (F := Ideal) j = (⊥ : EReal) := by
  unfold k0_pay3
  rw [shapeCast_self]
  exact ofBits_neg_inf

/-- The row stored at the first point of a column chunk as the running sum: `0`. -/
theorem pay4_apply (j : S1x2048.Idx) : k0_pay4 (F := Ideal) j = (0 : EReal) := by
  unfold k0_pay4
  rw [shapeCast_self]
  exact Ideal.ofBits_zero_f32

end Cert.KernelIdeal.Pay

end
-- ==== Proof.Step.lean ====
/-
  One grid point's step, in terms of the whole argument array.

  Fix a sequence `b` (column `q` of the point's column chunk) and write `g = SoftLength.sigCol x b` for its logistic values
  by position.  If the point's block holds the positions `lo ≤ j < lo + 256`, the carried maximum is the tail maximum of
  `g` from `lo + 256` and the carried sum is the sum of the tail maxima from `lo + 256` on, then after the point the
  running maximum is the tail maximum from `lo` and the running sum is the sum of the tail maxima from `lo` on:
    • row `r` of the combined block is max (max of g over [lo + r, lo + 256)) (tail maximum from lo + 256), which is the
      tail maximum from `lo + r` (a tail maximum splits at an interior point);
    • adding the 256 rows to the sum over [lo + 256, 8192) gives the sum over [lo, 8192).
  At the first point of a chunk the carried values `-∞` and `0` are the tail maximum and the sum over the empty stretch
  from 8192 on.
-/
import proofs.«130642_j23699629540183_1_alg».proof.Proof.Payloads
import proofs.«130642_j23699629540183_1_alg».proof.Proof.Spec

noncomputable section

namespace Cert.KernelIdeal.Pay

open Cert.KernelIdeal Cert.KernelIdeal.Gen Idealize.ShloMosaic Idealize.ShloMosaic.ValueIdx SoftLength

/-- A window maximum of a function that is a shifted copy of another is the other's window maximum, shifted. -/
theorem sup_Ico_shift (s g : ℕ → EReal) (lo r w : ℕ) (hs : ∀ r', r' < w → s r' = g (lo + r')) :
    (Finset.Ico r w).sup s = (Finset.Ico (lo + r) (lo + w)).sup g := by
  refine eq_of_forall_ge_iff fun c => ?_
  rw [Finset.sup_le_iff, Finset.sup_le_iff]
  constructor
  · intro h j hj
    have hj' := Finset.mem_Ico.1 hj
    have := h (j - lo) (Finset.mem_Ico.2 ⟨by omega, by omega⟩)
    rw [hs _ (by omega)] at this
    have e : lo + (j - lo) = j := by omega
    rwa [e] at this
  · intro h r' hr'
    have hr'' := Finset.mem_Ico.1 hr'
    rw [hs _ hr''.2]
    exact h _ (Finset.mem_Ico.2 ⟨by omega, by omega⟩)

/-- The tail maximum over the empty stretch is `-∞`. -/
theorem tailMax_end (n : ℕ) (g : ℕ → EReal) : tailMax n g n = ⊥ := by
  unfold tailMax
  rw [Finset.Ico_self, Finset.sup_empty]

/-- One grid point's step (the module's header says it in words). -/
theorem step (x : S8192x4096.Idx → EReal) (b : Fin 4096) (q : Fin 2048) (lo : ℕ) (hlo : lo + 256 ≤ 8192)
    (blk : Vec Ideal S256x2048 .f32) (cr ac : Vec Ideal S1x2048 .f32)
    (hblk : ∀ r : Fin 256, blk (ix2 r q) = x (ix2 ⟨lo + r.val, by have := r.isLt; omega⟩ b))
    (hcr : cr (ix2 0 q) = tailMax 8192 (sigCol x b) (lo + 256))
    (hac : ac (ix2 0 q) = ∑ k ∈ Finset.Ico (lo + 256) 8192, tailMax 8192 (sigCol x b) k) :
    k0_pay2 (F := Ideal) (k0_pay5 blk cr) (ix2 0 q) = tailMax 8192 (sigCol x b) lo
      ∧ k0_pay1 (F := Ideal) (k0_pay5 blk cr) ac (ix2 0 q) = ∑ k ∈ Finset.Ico lo 8192, tailMax 8192 (sigCol x b) k := by
  have hrow : ∀ r : Fin 256, k0_pay5 (F := Ideal) blk cr (ix2 r q) = tailMax 8192 (sigCol x b) (lo + r.val) := by
    intro r
    have hr := r.isLt
    rw [pay5_apply, hcr]
    have e : (Finset.Ico r.val 256).sup (sigRows blk q) = (Finset.Ico (lo + r.val) (lo + 256)).sup (sigCol x b) :=
      sup_Ico_shift _ _ lo r.val 256 (fun r' hr' => by
        unfold sigRows sigCol colRows
        rw [dif_pos hr', dif_pos (by omega)]
        exact congrArg Ideal.logistic (hblk ⟨r', hr'⟩))
    rw [e]
    exact (tailMax_split 8192 (sigCol x b) (by omega) hlo).symm
  constructor
  · rw [pay2_apply, hrow 0]
    rfl
  · rw [pay1_apply, hac]
    simp only [hrow]
    exact (sum_tail_split (fun k => tailMax 8192 (sigCol x b) k) lo 256 8192 hlo).symm

end Cert.KernelIdeal.Pay

end
-- ==== Proof.Invariant.lean ====
/-
  The carried rows after every grid point, in terms of the whole argument array.

  The grid has 2 column chunks of 2048 sequences by 32 steps; point `t` is step `t % 32` of chunk `t / 32` and handles the
  block of positions `[lo, lo + 256)` with `lo = 256 · (31 - t % 32)`: the blocks are visited from the last to the first.
  After point `t`, for every column `q` of the chunk (sequence `b = 2048 · (t / 32) + q`):
      the carried maximum is the tail maximum of the sequence's logistic values from position `lo`,
      the carried sum is the sum of its tail maxima over the positions from `lo` on.
  By induction on the point: the first step of a chunk starts from `-∞` and `0`, every other step from what the point
  before left, whose block is the next one up; each is one application of the step lemma.
-/
import proofs.«130642_j23699629540183_1_alg».proof.Proof.Gen.KernelIdeal.Frame
import proofs.«130642_j23699629540183_1_alg».proof.Proof.Pieces
import proofs.«130642_j23699629540183_1_alg».proof.Proof.Step

noncomputable section

namespace Cert.KernelIdeal.Inv

open Cert.KernelIdeal Cert.KernelIdeal.Gen Cert.KernelIdeal.Pieces Cert.KernelIdeal.Pay
open Idealize.ShloMosaic Idealize.ShloMosaic.TcCoe Idealize.SL.Sem Idealize.ShloMosaic.ValueIdx SoftLength
open Idealize.ShloMosaic.Pipeline (Dat)

variable (m : (ℓ : Loc nD τ sig) → Buf (Elt Ideal) ℓ) (ρ : Dev nD → PrngReg)

/-- The printed index maps, decided once over the grid: the input's block is (31 - step, chunk), the output's (0, chunk). -/
theorem idx_facts : ∀ t : Fin cfg0.N, win0_0.index t (0 : Fin 2) = 31 - t.val % 32 ∧ win0_0.index t (1 : Fin 2) = t.val / 32
    ∧ win0_1.index t (0 : Fin 2) = 0 ∧ win0_1.index t (1 : Fin 2) = t.val / 32 :=
  (by decide +kernel : ∀ t : Fin grid0.N, win0_0.index t (0 : Fin 2) = 31 - t.val % 32 ∧ win0_0.index t (1 : Fin 2) = t.val / 32
    ∧ win0_1.index t (0 : Fin 2) = 0 ∧ win0_1.index t (1 : Fin 2) = t.val / 32)

/-- The argument array on core `c`. -/
abbrev X (c : Dev nD) : S8192x4096.Idx → EReal := m ((c : Thread nD τ).loc main_arg0)

/-- The sequence that column `q` of point `t`'s chunk is. -/
def colOf (t : Fin cfg0.N) (q : Fin 2048) : Fin 4096 :=
  ⟨2048 * (t.val / 32) + q.val, by have := lt_of_lt_of_eq t.isLt (show cfg0.N = 64 from N_0); have := q.isLt; omega⟩

/-- The input block at point `t`, read at row `r`, column `q`: the argument at position `lo + r`, sequence `colOf t q`. -/
theorem iblk_apply (c : Dev nD) (t : Fin cfg0.N) (r : Fin 256) (q : Fin 2048)
    (hr : 256 * (31 - t.val % 32) + r.val < 8192) :
    (iblk m c 0 t : Vec Ideal S256x2048 .f32) (ix2 r q) = X m c (ix2 ⟨256 * (31 - t.val % 32) + r.val, hr⟩ (colOf t q)) := by
  obtain ⟨e0, e1, -, -⟩ := idx_facts t
  unfold iblk
  rw [View.read_apply]
  show V m c main_arg0 _ = m (c.tc.loc main_arg0) _
  rw [V_main_arg0]
  refine congrArg _ (funext fun a => Fin.ext ?_)
  match a with
  | ⟨0, _⟩ =>
    show win0_0.index t 0 * 256 + 1 * r.val = 256 * (31 - t.val % 32) + r.val
    rw [e0]; omega
  | ⟨1, _⟩ =>
    show win0_0.index t 1 * 2048 + 1 * q.val = 2048 * (t.val / 32) + q.val
    rw [e1]; omega

/-- One point's step at point `t`, from carried rows that are right for the block above. -/
theorem point_step (c : Dev nD) (t : Fin cfg0.N) (q : Fin 2048) (cr ac : Vec Ideal S1x2048 .f32)
    (hcr : cr (ix2 0 q) = tailMax 8192 (sigCol (X m c) (colOf t q)) (256 * (31 - t.val % 32) + 256))
    (hac : ac (ix2 0 q) = ∑ k ∈ Finset.Ico (256 * (31 - t.val % 32) + 256) 8192, tailMax 8192 (sigCol (X m c) (colOf t q)) k) :
    k0_pay2 (F := Ideal) (k0_pay5 (iblk m c 0 t) cr) (ix2 0 q) = tailMax 8192 (sigCol (X m c) (colOf t q)) (256 * (31 - t.val % 32))
      ∧ k0_pay1 (F := Ideal) (k0_pay5 (iblk m c 0 t) cr) ac (ix2 0 q)
          = ∑ k ∈ Finset.Ico (256 * (31 - t.val % 32)) 8192, tailMax 8192 (sigCol (X m c) (colOf t q)) k :=
  step (X m c) (colOf t q) q (256 * (31 - t.val % 32)) (by omega) (iblk m c 0 t) cr ac
    (fun r => iblk_apply m c t r q (by have := r.isLt; omega)) hcr hac

/-- The carried rows after a first step of a chunk, as stored values. -/
theorem comps_A (c : Dev nD) (t : Fin cfg0.N) (h0 : t.val % 32 = 0) (h1 : ¬t.val % 32 = 31) :
    (outsAt0 m c t.val t.isLt).2.1 = k0_pay2 (k0_pay5 (iblk m c 0 t) (k0_pay3 (F := Ideal)))
      ∧ (outsAt0 m c t.val t.isLt).2.2 = k0_pay1 (k0_pay5 (iblk m c 0 t) (k0_pay3 (F := Ideal))) (k0_pay4 (F := Ideal)) := by
  rw [outsAt0_A m c t h0 h1]
  dsimp only
  exact ⟨carry_A c (grid0.coords t) (ms0_0 t) (hs0_0 t) (ms0_1 t) (hs0_1 t) scM0_0 (Memref.isWhole_whole _) scM0_1 (Memref.isWhole_whole _)
      ((hcond0_0 t).mpr h0) (fun h => h1 ((hcond0_1 t).mp h)) (iblk m c 0 t),
    acc_A c (grid0.coords t) (ms0_0 t) (hs0_0 t) (ms0_1 t) (hs0_1 t) scM0_0 (Memref.isWhole_whole _) scM0_1 (Memref.isWhole_whole _)
      ((hcond0_0 t).mpr h0) (fun h => h1 ((hcond0_1 t).mp h)) (iblk m c 0 t)⟩

/-- The carried rows after a middle step, as stored values over what the point before left. -/
theorem comps_B (c : Dev nD) (t : Fin cfg0.N) (h0 : ¬t.val % 32 = 0) (h1 : ¬t.val % 32 = 31) :
    (outsAt0 m c t.val t.isLt).2.1
        = k0_pay2 (k0_pay5 (iblk m c 0 t) (outsAt0 m c (t.val - 1) (Nat.lt_of_le_of_lt (Nat.sub_le _ _) t.isLt)).2.1)
      ∧ (outsAt0 m c t.val t.isLt).2.2
        = k0_pay1 (k0_pay5 (iblk m c 0 t) (outsAt0 m c (t.val - 1) (Nat.lt_of_le_of_lt (Nat.sub_le _ _) t.isLt)).2.1)
            (outsAt0 m c (t.val - 1) (Nat.lt_of_le_of_lt (Nat.sub_le _ _) t.isLt)).2.2 := by
  rw [outsAt0_B m c t h0 h1]
  dsimp only
  exact ⟨carry_B c (grid0.coords t) (ms0_0 t) (hs0_0 t) (ms0_1 t) (hs0_1 t) scM0_0 (Memref.isWhole_whole _) scM0_1 (Memref.isWhole_whole _)
      (fun h => h0 ((hcond0_0 t).mp h)) (fun h => h1 ((hcond0_1 t).mp h)) (iblk m c 0 t) _ _,
    acc_B c (grid0.coords t) (ms0_0 t) (hs0_0 t) (ms0_1 t) (hs0_1 t) scM0_0 (Memref.isWhole_whole _) scM0_1 (Memref.isWhole_whole _)
      (fun h => h0 ((hcond0_0 t).mp h)) (fun h => h1 ((hcond0_1 t).mp h)) (iblk m c 0 t) _ _⟩

/-- The carried rows and the output row after the last step of a chunk. -/
theorem comps_C (c : Dev nD) (t : Fin cfg0.N) (h0 : ¬t.val % 32 = 0) (h1 : t.val % 32 = 31) :
    (outsAt0 m c t.val t.isLt).2.1
        = k0_pay2 (k0_pay5 (iblk m c 0 t) (outsAt0 m c (t.val - 1) (Nat.lt_of_le_of_lt (Nat.sub_le _ _) t.isLt)).2.1)
      ∧ (outsAt0 m c t.val t.isLt).2.2
        = k0_pay1 (k0_pay5 (iblk m c 0 t) (outsAt0 m c (t.val - 1) (Nat.lt_of_le_of_lt (Nat.sub_le _ _) t.isLt)).2.1)
            (outsAt0 m c (t.val - 1) (Nat.lt_of_le_of_lt (Nat.sub_le _ _) t.isLt)).2.2
      ∧ (outsAt0 m c t.val t.isLt).1 = (outsAt0 m c t.val t.isLt).2.2 := by
  rw [outsAt0_C m c t h0 h1]
  dsimp only
  refine ⟨carry_C c (grid0.coords t) (ms0_0 t) (hs0_0 t) (ms0_1 t) (hs0_1 t) scM0_0 (Memref.isWhole_whole _) scM0_1 (Memref.isWhole_whole _)
      (fun h => h0 ((hcond0_0 t).mp h)) ((hcond0_1 t).mpr h1) (iblk m c 0 t) _ _,
    acc_C c (grid0.coords t) (ms0_0 t) (hs0_0 t) (ms0_1 t) (hs0_1 t) scM0_0 (Memref.isWhole_whole _) scM0_1 (Memref.isWhole_whole _)
      (fun h => h0 ((hcond0_0 t).mp h)) ((hcond0_1 t).mpr h1) (iblk m c 0 t) _ _, ?_⟩
  exact (out_C c (grid0.coords t) (ms0_0 t) (hs0_0 t) (ms0_1 t) (hs0_1 t) scM0_0 (Memref.isWhole_whole _) scM0_1 (Memref.isWhole_whole _)
      (fun h => h0 ((hcond0_0 t).mp h)) ((hcond0_1 t).mpr h1) (iblk m c 0 t) _ _).trans
    (acc_C c (grid0.coords t) (ms0_0 t) (hs0_0 t) (ms0_1 t) (hs0_1 t) scM0_0 (Memref.isWhole_whole _) scM0_1 (Memref.isWhole_whole _)
      (fun h => h0 ((hcond0_0 t).mp h)) ((hcond0_1 t).mpr h1) (iblk m c 0 t) _ _).symm

/-- THE INVARIANT: the carried maximum and the carried sum after point `n`, at every column of its chunk. -/
theorem carried (c : Dev nD) : ∀ (n : ℕ) (h : n < cfg0.N) (q : Fin 2048),
    (outsAt0 m c n h).2.1 (ix2 0 q) = tailMax 8192 (sigCol (X m c) (colOf ⟨n, h⟩ q)) (256 * (31 - n % 32))
      ∧ (outsAt0 m c n h).2.2 (ix2 0 q)
          = ∑ k ∈ Finset.Ico (256 * (31 - n % 32)) 8192, tailMax 8192 (sigCol (X m c) (colOf ⟨n, h⟩ q)) k := by
  intro n
  induction n with
  | zero =>
    intro h q
    have hA := comps_A m c ⟨0, h⟩ rfl (by show ¬((0 : ℕ) % 32 = 31); decide)
    rw [show (outsAt0 m c 0 h).2.1 = _ from hA.1, show (outsAt0 m c 0 h).2.2 = _ from hA.2]
    exact point_step m c ⟨0, h⟩ q _ _
      (by rw [pay3_apply]; exact (tailMax_end 8192 _).symm)
      (by rw [pay4_apply]; show (0 : EReal) = ∑ k ∈ Finset.Ico 8192 8192, _; rw [Finset.Ico_self, Finset.sum_empty])
  | succ n ih =>
    intro h q
    have hN : n + 1 < 64 := lt_of_lt_of_eq h (show cfg0.N = 64 from N_0)
    by_cases h0 : (n + 1) % 32 = 0
    · have h1 : ¬(n + 1) % 32 = 31 := by omega
      have hA := comps_A m c ⟨n + 1, h⟩ h0 h1
      rw [show (outsAt0 m c (n + 1) h).2.1 = _ from hA.1, show (outsAt0 m c (n + 1) h).2.2 = _ from hA.2]
      have e : 256 * (31 - (n + 1) % 32) + 256 = 8192 := by omega
      exact point_step m c ⟨n + 1, h⟩ q _ _
        (by rw [pay3_apply]; show (⊥ : EReal) = tailMax 8192 _ (256 * (31 - (n + 1) % 32) + 256); rw [e]; exact (tailMax_end 8192 _).symm)
        (by rw [pay4_apply]; show (0 : EReal) = ∑ k ∈ Finset.Ico (256 * (31 - (n + 1) % 32) + 256) 8192, _
            rw [e, Finset.Ico_self, Finset.sum_empty])
    · have hprev := ih (Nat.lt_of_succ_lt h) q
      have ecol : colOf ⟨n, Nat.lt_of_succ_lt h⟩ q = colOf ⟨n + 1, h⟩ q := Fin.ext (by show 2048 * (n / 32) + q.val = 2048 * ((n + 1) / 32) + q.val; omega)
      have elo : 256 * (31 - n % 32) = 256 * (31 - (n + 1) % 32) + 256 := by omega
      rw [ecol, elo] at hprev
      by_cases h1 : (n + 1) % 32 = 31
      · have hC := comps_C m c ⟨n + 1, h⟩ h0 h1
        rw [show (outsAt0 m c (n + 1) h).2.1 = _ from hC.1, show (outsAt0 m c (n + 1) h).2.2 = _ from hC.2.1]
        exact point_step m c ⟨n + 1, h⟩ q _ _ hprev.1 hprev.2
      · have hB := comps_B m c ⟨n + 1, h⟩ h0 h1
        rw [show (outsAt0 m c (n + 1) h).2.1 = _ from hB.1, show (outsAt0 m c (n + 1) h).2.2 = _ from hB.2]
        exact point_step m c ⟨n + 1, h⟩ q _ _ hprev.1 hprev.2

/-- So at the last step of a chunk the output row holds the soft lengths of the chunk's sequences. -/
theorem out_last (c : Dev nD) (t : Fin cfg0.N) (h1 : t.val % 32 = 31) (q : Fin 2048) :
    (outsAt0 m c t.val t.isLt).1 (ix2 0 q) = colSoftLength (X m c) (colOf t q) := by
  have h0 : ¬t.val % 32 = 0 := by omega
  rw [(comps_C m c t h0 h1).2.2, (carried m c t.val t.isLt q).2, colSoftLength_eq_Ico]
  have e : 256 * (31 - t.val % 32) = 0 := by omega
  rw [e]

end Cert.KernelIdeal.Inv

end
-- ==== Proof.KernelValue.lean ====
/-
  The kernel's result array is the soft length of its argument.

  The output window is one row of 2048 columns per column chunk, written back once per chunk, after the chunk's last
  step, when it holds the chunk's soft lengths.  The two write-backs cover the [1, 4096] array, so it ends holding, at
  column `j`, the soft length of sequence `j`; the reshape after the region drops the unit axis.
-/
import proofs.«130642_j23699629540183_1_alg».proof.Proof.Invariant
import Idealize.ShloMosaic.Lib.Pipeline.Value
import Idealize.ShloMosaic.Lib.StableHlo.Run

noncomputable section

namespace Cert.KernelIdeal.KValue

open Cert.KernelIdeal Cert.KernelIdeal.Gen Cert.KernelIdeal.Inv
open Idealize.ShloMosaic Idealize.ShloMosaic.TcCoe Idealize.SL.Sem Idealize.ShloMosaic.ValueIdx SoftLength
open Idealize.ShloMosaic.Pipeline (Dat)

variable (m : (ℓ : Loc nD τ sig) → Buf (Elt Ideal) ℓ) (ρ : Dev nD → PrngReg)

/-- What the [1, 4096] output array ends holding: at column `j`, the soft length of sequence `j`. -/
def rowResult (c : Dev nD) : S1x4096.Idx → EReal := fun i => colSoftLength (X m c) ⟨(i 1).val, idx2_lt1 i⟩

/-- An index of a one-row block is row 0 and its column. -/
theorem row_idx (y : S1x2048.Idx) : y = ix2 (0 : Fin 1) (y 1) := by
  funext a
  match a with
  | ⟨0, _⟩ => exact Fin.ext (by have : (y 0).val < 1 := (y 0).isLt; show (y 0).val = 0; omega)
  | ⟨1, _⟩ => rfl

/-- What a write-back writes is the block of `rowResult` under it. -/
theorem flushed_eq (c : Dev nD) (t : Fin cfg0.N) (hf : (cfg0.win 1).flush t = true) :
    (dats m 0 c).flushed 1 t = ((cfg0.win 1).blk t).view.read (Elt Ideal) (rowResult m c) := by
  have h31 : t.val % 32 = 31 := (flush0_1 t).mp hf
  obtain ⟨-, -, e2, e3⟩ := idx_facts t
  show (cfg0.win 1).cut (grid0.coords t) ((dats m 0 c).after 1 t) = _
  rw [after0_1]
  funext y
  obtain ⟨q, rfl⟩ : ∃ q : Fin 2048, y = ix2 (0 : Fin 1) q := ⟨_, row_idx y⟩
  show (outsAt0 m c t.val t.isLt).1 (ix2 0 q) = rowResult m c (((cfg0.win 1).blk t).view.emb (ix2 0 q))
  rw [out_last m c t h31 q]
  unfold rowResult
  refine congrArg (colSoftLength (X m c)) (Fin.ext ?_)
  show 2048 * (t.val / 32) + q.val = win0_1.index t 1 * 2048 + 1 * q.val
  rw [e3]; omega

/-- An index of the array is in point `t`'s block iff each coordinate is in the block's range on its axis. -/
theorem mem_blk (t : Fin cfg0.N) (i : S1x4096.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- Every index of the array is under the write-back of its chunk. -/
theorem cover (i : S1x4096.Idx) : ∃ t : Fin cfg0.N, (cfg0.win 1).flush t = true ∧ i ∈ ((cfg0.win 1).blk t).view.set := by
  have hi0 : (i 0).val < 1 := (i 0).isLt
  have hi1 : (i 1).val < 4096 := (i 1).isLt
  have hN : cfg0.N = 64 := N_0
  obtain ⟨t, ht⟩ : ∃ t : Fin cfg0.N, t.val = 32 * ((i 1).val / 2048) + 31 := ⟨⟨32 * ((i 1).val / 2048) + 31, by omega⟩, rfl⟩
  obtain ⟨-, -, e2, e3⟩ := idx_facts t
  refine ⟨t, (flush0_1 t).mpr (by omega), ?_⟩
  rw [mem_blk]
  intro a
  match a with
  | ⟨0, _⟩ =>
    show win0_1.index t 0 * 1 ≤ (i 0).val ∧ (i 0).val < win0_1.index t 0 * 1 + 1
    rw [e2]; omega
  | ⟨1, _⟩ =>
    show win0_1.index t 1 * 2048 ≤ (i 1).val ∧ (i 1).val < win0_1.index t 1 * 2048 + 2048
    rw [e3]; omega

/-- The output array after the region. -/
theorem final (c : Dev nD) : (dats m 0 c).arrAt 1 cfg0.N = rowResult m c :=
  (dats m 0 c).arrAt_eq_of_cover 1 (rowResult m c) (flushed_eq m c) (cover)

/-- The reshape after the region turns it into the soft length of the argument. -/
theorem tail_eq (c : Dev nD) :
    Pipeline.afterTail₀ cfgs (dats m) 0 (V0 m) [hostOps1] c main_v1 = softLength (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = rowResult m c :=
    (Pipeline.withArrays_arr spec0 launch0.win.arr_inj c _ _ 1).trans (final m c)
  rw [hw]
  funext i
  obtain ⟨b, rfl⟩ : ∃ b : Fin 4096, i = ix1 b := ⟨i 0, eq_ix1 i⟩
  rw [softLength_ix1]
  show shapeCast S4096 (rowResult m c) shapeCasts_S1x4096_S4096 (ix1 b) = _
  refine (shapeCast_dropUnit_apply ![4096] (rowResult m c) shapeCasts_S1x4096_S4096 (ix1 b)).trans ?_
  unfold rowResult
  rfl

/-- The run, read: the result at the soft length of the argument, the argument unchanged. -/
theorem run : θ_run defs (onTc (τ := τ) (main (F := Ideal))) ⟨m, fun _ => 0, ρ⟩ fun r => ∀ c : Dev nD,
      r.2.mem ((c : Thread nD τ).loc main_v1) = softLength (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.KValue

end
-- ==== Proof.lean ====
/-
  The soft length of 4096 sequences of 8192 positions: a blockwise Pallas kernel against its jnp reference, at the exact
  extended reals.

  Both programs compute, for every sequence b,   ∑ over positions k of  max over positions j ≥ k of  σ (x (j, b))
  (σ the logistic function): the sum over the positions of the reverse running maximum of σ x.
    • The reference spells σ as 1 / (1 + exp (-x)), the running maximum as a window maximum padded with -∞ behind the last
      position, and sums the columns from 0 (Proof/RefValue.lean over Proof/LibCummax.lean).
    • The kernel walks each chunk of 2048 sequences from the last block of 256 positions to the first, carrying the tail
      maximum and the sum of tail maxima seen so far; inside a block, eight shift-and-max steps (shifts 1, 2, …, 128) give
      the block's own tail maxima (Proof/LibShiftScan.lean, Proof/Payloads.lean, Proof/Step.lean); the carried rows after
      every grid point are read off the frame run by induction on the point (Proof/Pieces.lean, Proof/Invariant.lean); the
      two write-backs cover the output row, and the reshape drops its unit axis (Proof/KernelValue.lean).
  The two sides are one function of the argument (Proof/Spec.lean); only commutativity and associativity of + and the
  lattice laws of max on the extended reals are used, so the finiteness precondition is never opened.  The idealization
  rewrote nothing, so `preserves` is `True`.
-/
import proofs.«130642_j23699629540183_1_alg».proof.Defs
import proofs.«130642_j23699629540183_1_alg».proof.Proof.Gen.Kernel
import proofs.«130642_j23699629540183_1_alg».proof.Proof.Gen.Kernel.Skeleton
import proofs.«130642_j23699629540183_1_alg».proof.Proof.Gen.Kernel.Launch
import proofs.«130642_j23699629540183_1_alg».proof.Proof.Gen.Kernel.Points
import proofs.«130642_j23699629540183_1_alg».proof.Proof.Gen.Kernel.Frame
import proofs.«130642_j23699629540183_1_alg».proof.Proof.Gen.KernelIdeal
import proofs.«130642_j23699629540183_1_alg».proof.Proof.Gen.KernelIdeal.Skeleton
import proofs.«130642_j23699629540183_1_alg».proof.Proof.Gen.KernelIdeal.Launch
import proofs.«130642_j23699629540183_1_alg».proof.Proof.Gen.KernelIdeal.Points
import proofs.«130642_j23699629540183_1_alg».proof.Proof.Gen.KernelIdeal.Frame
import proofs.«130642_j23699629540183_1_alg».proof.Proof.Gen.ReferenceIdeal
import proofs.«130642_j23699629540183_1_alg».proof.Proof.Gen.Pre_finite_inputs
import proofs.«130642_j23699629540183_1_alg».proof.Proof.RefRun
import proofs.«130642_j23699629540183_1_alg».proof.Proof.RefValue
import proofs.«130642_j23699629540183_1_alg».proof.Proof.KernelValue
import Idealize.ShloMosaic.Adequacy
import Idealize.ShloMosaic.Init

noncomputable section

namespace Cert.Proof

open Idealize.ShloMosaic Idealize.SL.Sem SoftLength

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the result at the soft length of the (agreeing) argument arrays. -/
theorem algebraic : Cert.algebraic_KernelIdeal_ReferenceIdeal := by
  intro m ρ m' ρ' _ hagree
  refine ⟨fun c => softLength (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
